-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel

variable [Facts]

def fn {F : FTy → Type} [FloatOps F] (main_arg0 : FVec F S8x1024x2048 .f32) (main_arg1 : FVec F S8x1024x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x1024x2048 .f32 := Host.absf main_arg1
  let main_cst_0 : FVec F S_ .f32 := constant S_ .f32 0x7F800000#32
  let main_v5 : FVec F S8x1024x2048 .f32 := broadcastInDim S8x1024x2048 ![] bcast_S_S8x1024x2048 main_cst_0
  let main_v6 : IVec S8x1024x2048 1 := cmpf .olt main_v4 main_v5
  let main_c_1 : IVec S_ 1 := constantI S_ 1 1#1
  let main_v7 : IVec S_ 1 := (fun x v => Host.reduce IntOp.andi x v reducesTo_S8x1024x2048_S_d0_1_2 h_S_) main_v6 main_c_1
  let main_v8 : IVec S_ 1 := andi main_v3 main_v7
  main_v8
-- ==== Kernel.lean ====
abbrev S8x1024x2048 : Shape := ⟨3, ![8, 1024, 2048]⟩
abbrev S8x1024x1024 : Shape := ⟨3, ![8, 1024, 1024]⟩
abbrev S1x256x2048 : Shape := ⟨3, ![1, 256, 2048]⟩
abbrev S1x1024x2048 : Shape := ⟨3, ![1, 1024, 2048]⟩
abbrev S1x256x1024 : Shape := ⟨3, ![1, 256, 1024]⟩
abbrev S1024x2048 : Shape := ⟨2, ![1024, 2048]⟩
abbrev S1x1024 : Shape := ⟨2, ![1, 1024]⟩
abbrev S1024 : Shape := ⟨1, ![1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 3
  | .vmem => 8
  | .smem => 0
  | _ => 0

abbrev bufTy : (tb : Table) → Fin (tcTables nBuf tb) → BufTy
  | .hbm, ⟨0, _⟩ => ⟨S8x1024x2048, .f32⟩
  | .hbm, ⟨1, _⟩ => ⟨S8x1024x2048, .f32⟩
  | .hbm, ⟨2, _⟩ => ⟨S8x1024x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S1x256x1024, .f32⟩
  | .local _ .vmem, ⟨5, _⟩ => ⟨S1x256x1024, .f32⟩
  | .local _ .vmem, ⟨6, _⟩ => ⟨S1024x2048, .bf16⟩
  | .local _ .vmem, ⟨7, _⟩ => ⟨S1x1024, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x1024 : S256x1.Broadcasts S256x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x1024x2048.size a
  hwx0_0 : ∀ i : grid0.Coords, EltTy.bits .f32 = 32 ∨ (Rect.block (s := S8x1024x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x1024x2048.size a
  hwx0_1 : ∀ i : grid0.Coords, EltTy.bits .f32 = 32 ∨ (Rect.block (s := S8x1024x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x1024x1024.size a
  hwx0_2 : ∀ i : grid0.Coords, EltTy.bits .f32 = 32 ∨ (Rect.block (s := S8x1024x1024) S1x256x1024.size (cc0_transform_2 i) (hinb0_2 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_arg1) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1024x2048 : Shape := ⟨3, ![8, 1024, 2048]⟩
abbrev S_ : Shape := ⟨0, ![]⟩
abbrev S8x1024 : Shape := ⟨2, ![8, 1024]⟩
abbrev S8x1024x1024 : Shape := ⟨3, ![8, 1024, 1024]⟩
abbrev S8x1024x1 : Shape := ⟨3, ![8, 1024, 1]⟩
abbrev S8x1x1024 : Shape := ⟨3, ![8, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x1024x2048, .f32⟩
  | .hbm, ⟨2, _⟩ => ⟨S8x1024x2048, .f32⟩
  | .hbm, ⟨3, _⟩ => ⟨S_, .f32⟩
  | .hbm, ⟨4, _⟩ => ⟨S8x1024, .f32⟩
  | .hbm, ⟨5, _⟩ => ⟨S8x1024, .f32⟩
  | .hbm, ⟨6, _⟩ => ⟨S8x1024x2048, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024x1024, .f32⟩
  | .hbm, ⟨11, _⟩ => ⟨S8x1024x1, .f32⟩
  | .hbm, ⟨12, _⟩ => ⟨S8x1x1024, .f32⟩
  | .hbm, ⟨13, _⟩ => ⟨S8x1024x1024, .f32⟩
  | .hbm, ⟨14, _⟩ => ⟨S8x1024x1024, .f32⟩
  | .hbm, ⟨15, _⟩ => ⟨S8x1024x1024, .f32⟩
  | .hbm, ⟨16, _⟩ => ⟨S_, .f32⟩
  | .hbm, ⟨17, _⟩ => ⟨S8x1024x1024, .f32⟩
  | .hbm, ⟨18, _⟩ => ⟨S8x1024x1024, .f32⟩
  | .hbm, ⟨19, _⟩ => ⟨S8x1024x1024, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_call1_v0 : Ref sig .tc := ⟨.hbm, 6, rfl⟩
abbrev main_call1_cst : Ref sig .tc := ⟨.hbm, 7, rfl⟩
abbrev main_call1_v1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S8x1024x2048_S8x1024_d2 : S8x1024x2048.ReducesTo [2] S8x1024
  h_S_ : 0 < S_.numel
  bcast_S8x1024_S8x1024x1_0_1 : S8x1024.BroadcastsInDim S8x1024x1 (![0, 1] : Fin 2 → Fin S8x1024x1.rank)
  bcast_S8x1024_S8x1x1024_0_2 : S8x1024.BroadcastsInDim S8x1x1024 (![0, 2] : Fin 2 → Fin S8x1x1024.rank)
  bcast_S8x1024x1_S8x1024x1024_0_1_2 : S8x1024x1.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  bcast_S_S8x1024x1024 : S_.BroadcastsInDim S8x1024x1024 (![] : Fin 0 → Fin S8x1024x1024.rank)
  dot_S8x1024x2048_S8x1024x2048_S8x1024x1024_2_2_1_1_0_0_wf : DotDims.WF S8x1024x2048 S8x1024x2048 S8x1024x1024 [2] [2] [1] [1] [0] [0]

variable [Facts₀]

def dot_S8x1024x2048_S8x1024x2048_S8x1024x1024_2_2_1_1_0_0 : DotDims S8x1024x2048 S8x1024x2048 S8x1024x1024 where
  lhsContracting := [2]
  rhsContracting := [2]
  lhsNonContracting := [1]
  rhsNonContracting := [1]
  lhsBatch := [0]
  rhsBatch := [0]
  wf := dot_S8x1024x2048_S8x1024x2048_S8x1024x1024_2_2_1_1_0_0_wf

class Facts : Prop extends Facts₀ where

variable [Facts]
-- ==== Proof.Pieces.lean ====
/-
  What one run of the kernel body leaves behind, as values.

  The body has two cases. At the first row tile of a batch it squares and row-sums the batch's support block, stores the
  row norms in one scratch buffer and the block itself (in the matmul's input format) in the other, and then computes
  the output tile from what it has just stored. At every other row tile it stores nothing into the scratch buffers and
  computes the output tile from what they already hold. Each store covers its whole buffer, so what a buffer holds
  afterwards is that one store's value, and a load of a buffer just stored reads the stored value back.
-/
import proofs.«131012_j9371618640063_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- First row tile of a batch: the support block's copy the body leaves in the first scratch buffer. -/
theorem support_copy_first (c : Dev nD) (i : grid0.Coords) (arg2 : Memref sig .tc .vmem S1x256x2048 .f32) (harg2 : arg2.IsWhole) (arg3 : Memref sig .tc .vmem S1x1024x2048 .f32) (harg3 : arg3.IsWhole) (arg4 : Memref sig .tc .vmem S1x256x1024 .f32) (harg4 : arg4.IsWhole) (arg5 : Memref sig .tc .vmem S1024x2048 .bf16) (harg5 : arg5.IsWhole) (arg6 : Memref sig .tc .vmem S1x1024 .f32) (harg6 : arg6.IsWhole) (hc0 : cond0_0 i) (x0 : Vec F S1x256x2048 .f32) (x1 : Vec F S1x1024x2048 .f32) :
    sout0_A_0 c i arg2 harg2 arg3 harg3 arg4 harg4 arg5 harg5 arg6 harg6 hc0 x0 x1 = k0_pay3 x1 := by
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_words
  rw [View.canon_unit_zero zeros2]
  simp only [View.readAt_eq_ld, harg3.read_unread, View.ld_unit_zero (S := S1x1024x2048) zeros3]

/-- First row tile of a batch: the support rows' norms the body leaves in the second scratch buffer. -/
theorem support_norms_first (c : Dev nD) (i : grid0.Coords) (arg2 : Memref sig .tc .vmem S1x256x2048 .f32) (harg2 : arg2.IsWhole) (arg3 : Memref sig .tc .vmem S1x1024x2048 .f32) (harg3 : arg3.IsWhole) (arg4 : Memref sig .tc .vmem S1x256x1024 .f32) (harg4 : arg4.IsWhole) (arg5 : Memref sig .tc .vmem S1024x2048 .bf16) (harg5 : arg5.IsWhole) (arg6 : Memref sig .tc .vmem S1x1024 .f32) (harg6 : arg6.IsWhole) (hc0 : cond0_0 i) (x0 : Vec F S1x256x2048 .f32) (x1 : Vec F S1x1024x2048 .f32) :
    sout0_A_1 c i arg2 harg2 arg3 harg3 arg4 harg4 arg5 harg5 arg6 harg6 hc0 x0 x1 = k0_pay2 x1 := by
  unfold sout0_A_1
  rw [View.read_writes_eq_canon _ _ _ (scover0_A_1 c i arg2 harg2 arg3 harg3 arg4 harg4 arg5 harg5 arg6 harg6 hc0 x0 x1)]
  unfold kernelRun0_A
  dsimp only
  sl_unfold_words
  rw [View.canon_unit_zero zeros2]
  simp only [View.readAt_eq_ld, harg3.read_unread, View.ld_unit_zero (S := S1x1024x2048) zeros3]

/-- First row tile of a batch: the output tile, computed from the two scratch values just stored. -/
theorem tile_first (c : Dev nD) (i : grid0.Coords) (arg2 : Memref sig .tc .vmem S1x256x2048 .f32) (harg2 : arg2.IsWhole) (arg3 : Memref sig .tc .vmem S1x1024x2048 .f32) (harg3 : arg3.IsWhole) (arg4 : Memref sig .tc .vmem S1x256x1024 .f32) (harg4 : arg4.IsWhole) (arg5 : Memref sig .tc .vmem S1024x2048 .bf16) (harg5 : arg5.IsWhole) (arg6 : Memref sig .tc .vmem S1x1024 .f32) (harg6 : arg6.IsWhole) (hc0 : cond0_0 i) (x0 : Vec F S1x256x2048 .f32) (x1 : Vec F S1x1024x2048 .f32) :
    out0_A_2 c i arg2 harg2 arg3 harg3 arg4 harg4 arg5 harg5 arg6 harg6 hc0 x0 x1 = k0_pay4 x0 (k0_pay3 x1) (k0_pay2 x1) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero zeros3]
  simp only [View.readCov_unit_zero (S := S1024x2048) _ zeros2, View.readCov_unit_zero (S := S1x1024) _ zeros2,
    View.readAt_eq_ld, harg2.read_unread, harg3.read_unread, View.ld_unit_zero (S := S1x256x2048) zeros3,
    View.ld_unit_zero (S := S1x1024x2048) zeros3]

/-- Any other row tile: the output tile, computed from what the scratch buffers held on entry. -/
theorem tile_later (c : Dev nD) (i : grid0.Coords) (arg2 : Memref sig .tc .vmem S1x256x2048 .f32) (harg2 : arg2.IsWhole) (arg3 : Memref sig .tc .vmem S1x1024x2048 .f32) (harg3 : arg3.IsWhole) (arg4 : Memref sig .tc .vmem S1x256x1024 .f32) (harg4 : arg4.IsWhole) (arg5 : Memref sig .tc .vmem S1024x2048 .bf16) (harg5 : arg5.IsWhole) (arg6 : Memref sig .tc .vmem S1x1024 .f32) (harg6 : arg6.IsWhole) (hc0 : ¬cond0_0 i) (x0 : Vec F S1x256x2048 .f32) (x1 : Vec F S1x1024x2048 .f32)
    (xs0 : Vec F S1024x2048 .bf16) (xs1 : Vec F S1x1024 .f32) :
    out0_B_2 c i arg2 harg2 arg3 harg3 arg4 harg4 arg5 harg5 arg6 harg6 hc0 x0 x1 xs0 xs1 = k0_pay4 x0 xs0 xs1 := by
  unfold out0_B_2
  rw [View.read_writes_eq_canon _ _ _ (cover0_B_2 c i arg2 harg2 arg3 harg3 arg4 harg4 arg5 harg5 arg6 harg6 hc0 x0 x1 xs0 xs1)]
  unfold kernelRun0_B
  dsimp only
  rw [View.canon_unit_zero zeros3]
  simp only [View.readAt_eq_ld, harg2.read_unread, harg5.read_unread, harg6.read_unread,
    View.ld_unit_zero (S := S1x256x2048) zeros3, View.ld_unit_zero (S := S1024x2048) zeros2,
    View.ld_unit_zero (S := S1x1024) zeros2]

end Cert.KernelIdeal.Pieces

end
-- ==== Proof.Spec.lean ====
/-
  The pairwise cosine similarity as one function of the two argument arrays, entry by entry, on the extended reals.

  For a batch b, a query row t of X and a support row s of S, each of 2048 entries:

      sim (b, t, s) = (Σ_d X(b,t,d) · S(b,s,d)) / max (‖X(b,t,·)‖ · ‖S(b,s,·)‖, ε),

  with ‖·‖ the square root of the sum of squares and ε the float constant both programs print. Every operation is the
  exact one on the extended reals, so the expression is meaningful at infinite entries too.
-/
import Idealize.ShloMosaic.PureOps.Ideal
import Idealize.ShloMosaic.Lib.ValueIdx

noncomputable section

open scoped BigOperators

namespace Cert.CosSim

open Idealize.ShloMosaic Idealize.ShloMosaic.ValueIdx

/-- The shape of each argument: 8 batches of 1024 rows of 2048 entries. -/
abbrev Rows : Shape := ⟨3, ![8, 1024, 2048]⟩
/-- The shape of the result: per batch, every query row against every support row. -/
abbrev Pairs : Shape := ⟨3, ![8, 1024, 1024]⟩

/-- Row `r` of the `q`-th tile of 256 query rows. -/
def row (q : Fin 4) (r : Fin 256) : Fin 1024 := ⟨256 * q.val + r.val, by have := q.isLt; have := r.isLt; omega⟩

/-- The inner product of query row `t` and support row `s` of batch `b`. -/
def inner (X S : Rows.Idx → EReal) (b : Fin 8) (t s : Fin 1024) : EReal :=
  ∑ d : Fin 2048, X (ix3 b t d) * S (ix3 b s d)

/-- The Euclidean norm of row `r` of batch `b`. -/
def norm (A : Rows.Idx → EReal) (b : Fin 8) (r : Fin 1024) : EReal :=
  Ideal.sqrt (∑ d : Fin 2048, A (ix3 b r d) * A (ix3 b r d))

/-- The floor under the product of the two norms. -/
def floor : EReal := Ideal.ofBits .f32 0x2EDBE6FF#32

/-- The similarity of query row `t` and support row `s` of batch `b`. -/
def simAt (S X : Rows.Idx → EReal) (b : Fin 8) (t s : Fin 1024) : EReal :=
  Ideal.div (inner X S b t s) (max (norm X b t * norm S b s) floor)

/-- The whole result array. -/
def sim (S X : Rows.Idx → EReal) : Pairs.Idx → EReal := fun i => simAt S X (i 0) (i 1) (i 2)

end Cert.CosSim

end
-- ==== Proof.Carried.lean ====
/-
  What the two scratch buffers and the output's staging buffer hold after each grid point.

  The grid has 32 points: point t works on batch t / 4 and on the (t mod 4)-th tile of 256 query rows. The support
  window's block at point t is the whole batch t / 4 of S, the same block at the four points of one batch. The scratch
  buffers are filled at the first point of a batch and only read at the other three, so after every point they hold
  the kept copy and the kept norms of THAT point's support block: by induction on the point, the step inside a batch
  using that the block has not changed. Hence the output tile after every point is computed from the point's own two
  blocks.
-/
import proofs.«131012_j9371618640063_1_alg».proof.Proof.Gen.KernelIdeal.Frame
import proofs.«131012_j9371618640063_1_alg».proof.Proof.Pieces
import proofs.«131012_j9371618640063_1_alg».proof.Proof.Spec
import Idealize.ShloMosaic.Lib.ValueIdx

noncomputable section

namespace Cert.KernelIdeal.Carried

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The three windows' block indices at point t: (t / 4, t mod 4, 0) for the query rows and the output, (t / 4, 0, 0)
    for the support rows. Decided over the 32 points. -/
theorem index_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0 :=
  (by decide +kernel : ∀ t : Fin grid0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0)

theorem points : cfg0.N = 32 := N_0

/-- The batch point t works on, -/
def batchOf (t : Fin cfg0.N) : Fin 8 := ⟨t.val / 4, by have := lt_of_lt_of_eq t.isLt points; omega⟩
/-- and its tile of query rows. -/
def tileOf (t : Fin cfg0.N) : Fin 4 := ⟨t.val % 4, Nat.mod_lt _ (by decide)⟩

/-- The support block at point t, at row s, entry d: the support array at (t / 4, s, d). -/
theorem support_block_at (c : Dev nD) (t : Fin cfg0.N) (s : Fin 1024) (d : Fin 2048) :
    (iblk m c 1 t : Vec F S1x1024x2048 .f32) (ix3 (0 : Fin 1) s d)
      = m ((c : Thread nD τ).loc main_arg0) (ix3 (batchOf t) s d) := by
  obtain ⟨-, -, -, e0, e1, e2, -⟩ := index_facts t
  unfold iblk
  rw [View.read_apply]
  show V m c main_arg0 (((cfg0.win 1).blk t).view.emb (ix3 (0 : Fin 1) s d)) = _
  refine congrArg (m ((c : Thread nD τ).loc main_arg0)) (funext fun a => Fin.ext ?_)
  match a with
  | ⟨0, _⟩ => show win0_1.index t (0 : Fin 3) * 1 + 1 * 0 = t.val / 4; omega
  | ⟨1, _⟩ => show win0_1.index t (1 : Fin 3) * 1024 + 1 * s.val = s.val; omega
  | ⟨2, _⟩ => show win0_1.index t (2 : Fin 3) * 2048 + 1 * d.val = d.val; omega

/-- The query block at point t, at row r, entry d: the query array at (t / 4, 256 · (t mod 4) + r, d). -/
theorem query_block_at (c : Dev nD) (t : Fin cfg0.N) (r : Fin 256) (d : Fin 2048) :
    (iblk m c 0 t : Vec F S1x256x2048 .f32) (ix3 (0 : Fin 1) r d)
      = m ((c : Thread nD τ).loc main_arg1) (ix3 (batchOf t) (Cert.CosSim.row (tileOf t) r) d) := by
  obtain ⟨e0, e1, e2, -⟩ := index_facts t
  unfold iblk
  rw [View.read_apply]
  show V m c main_arg1 (((cfg0.win 0).blk t).view.emb (ix3 (0 : Fin 1) r d)) = _
  refine congrArg (m ((c : Thread nD τ).loc main_arg1)) (funext fun a => Fin.ext ?_)
  match a with
  | ⟨0, _⟩ => show win0_0.index t (0 : Fin 3) * 1 + 1 * 0 = t.val / 4; omega
  | ⟨1, _⟩ => show win0_0.index t (1 : Fin 3) * 256 + 1 * r.val = 256 * (t.val % 4) + r.val; omega
  | ⟨2, _⟩ => show win0_0.index t (2 : Fin 3) * 2048 + 1 * d.val = d.val; omega

/-- Two points of one batch have the same support block. -/
theorem support_block_same (c : Dev nD) (t t' : Fin cfg0.N) (h : t.val / 4 = t'.val / 4) :
    (iblk m c 1 t : Vec F S1x1024x2048 .f32) = iblk m c 1 t' := by
  funext y
  obtain ⟨u, s, d, rfl⟩ : ∃ (u : Fin 1) (s : Fin 1024) (d : Fin 2048), y = ix3 u s d := ⟨y 0, y 1, y 2, eq_ix3 y⟩
  obtain rfl : u = 0 := Subsingleton.elim _ _
  refine (support_block_at m c t s d).trans (Eq.trans ?_ (support_block_at m c t' s d).symm)
  exact congrArg (fun b : Fin 8 => m ((c : Thread nD τ).loc main_arg0) (ix3 b s d)) (Fin.ext h)

/-- At the first point of a batch the body fills the two scratch buffers from that point's support block. -/
theorem scratch_first (c : Dev nD) (t : Fin cfg0.N) (h0 : t.val % 4 = 0) :
    (outsAt0 m c t.val t.isLt).2.1 = k0_pay3 (iblk m c 1 t) ∧ (outsAt0 m c t.val t.isLt).2.2 = k0_pay2 (iblk m c 1 t) := by
  rw [outsAt0_A m c t h0]
  dsimp only
  exact ⟨Pieces.support_copy_first c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t),
    Pieces.support_norms_first c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)⟩

/-- At any other point the scratch buffers keep what the point before left. -/
theorem scratch_kept (c : Dev nD) (t : Fin cfg0.N) (h0 : ¬t.val % 4 = 0) :
    (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_B m c t h0]
  dsimp only
  unfold sout0_B_0 sout0_B_1
  exact ⟨rfl, rfl⟩

/-- After every point the two scratch buffers hold the kept copy and the kept norms of that point's support block. -/
theorem scratch_after (c : Dev nD) : ∀ (n : ℕ) (h : n < cfg0.N),
    (outsAt0 m c n h).2.1 = k0_pay3 (iblk m c 1 ⟨n, h⟩) ∧ (outsAt0 m c n h).2.2 = k0_pay2 (iblk m c 1 ⟨n, h⟩)
  | 0, h => scratch_first m c ⟨0, h⟩ rfl
  | n + 1, h => by
    by_cases h0 : (n + 1) % 4 = 0
    · exact scratch_first m c ⟨n + 1, h⟩ h0
    · obtain ⟨k1, k2⟩ := scratch_kept m c ⟨n + 1, h⟩ h0
      obtain ⟨i1, i2⟩ := scratch_after c n (Nat.lt_of_succ_lt h)
      have same : (iblk m c 1 ⟨n, Nat.lt_of_succ_lt h⟩ : Vec F S1x1024x2048 .f32) = iblk m c 1 ⟨n + 1, h⟩ :=
        support_block_same m c _ _ (by show n / 4 = (n + 1) / 4; omega)
      exact ⟨k1.trans (i1.trans (congrArg k0_pay3 same)), k2.trans (i2.trans (congrArg k0_pay2 same))⟩

/-- So the output tile after every point is the body's value of the point's own query block and support block. -/
theorem tile_after (c : Dev nD) (t : Fin cfg0.N) :
    (outsAt0 m c t.val t.isLt).1
      = k0_pay4 (iblk m c 0 t) (k0_pay3 (iblk m c 1 t)) (k0_pay2 (iblk m c 1 t)) := by
  by_cases h0 : t.val % 4 = 0
  · rw [outsAt0_A m c t h0]
    dsimp only
    exact Pieces.tile_first c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)
  · have hpos : t.val - 1 < cfg0.N := Nat.lt_of_le_of_lt (Nat.sub_le _ _) t.isLt
    obtain ⟨k1, k2⟩ := scratch_after m c (t.val - 1) hpos
    have same : (iblk m c 1 ⟨t.val - 1, hpos⟩ : Vec F S1x1024x2048 .f32) = iblk m c 1 t :=
      support_block_same m c _ _ (by show (t.val - 1) / 4 = t.val / 4; omega)
    rw [outsAt0_B m c t h0]
    dsimp only
    refine (Pieces.tile_later c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk m c 0 t) (iblk m c 1 t) (outsAt0 m c (t.val - 1) hpos).2.1 (outsAt0 m c (t.val - 1) hpos).2.2).trans ?_
    rw [k1, k2, same]

end Cert.KernelIdeal.Carried

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibTransposedMatmul.lean ====
/-
  A matrix product `[a, n] × [b, n]ᵀ` (both operands contracted on their columns, no batch axis) into the zero
  accumulator, read at an entry on the extended reals: entry `(r, j)` is the sum over `k` of the left operand at
  `(r, k)` times the right operand at `(j, k)`. General over the three extents, the two operand formats and the
  precision.
-/
import Idealize.ShloMosaic.Lib.ValueIdx
import Idealize.ShloMosaic.PureOps.Ideal.Laws

noncomputable section

open scoped BigOperators

namespace Cert.LibTransposedMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.transposedRhs a n b).contr.Idx) :
    ((DotDims.transposedRhs a n b).lhsIdx i q 0).val = (i 0).val := rfl

/-- … and the contraction coordinate as its column. -/
theorem lhs_col (i : (⟨2, ![a, b]⟩ : Shape).Idx) (q : (DotDims.transposedRhs a n b).contr.Idx) :
    ((DotDims.transposedRhs a n b).lhsIdx i q 1).val
      = (q (⟨0, Nat.one_pos⟩ : Fin (DotDims.transposedRhs a n b).contr.rank)).val :=
  (DotDims.transposedRhs a n b).lhsIdx_val_of_single rfl i q

/-- The right operand's index: row `i 1` … -/
theorem rhs_row (i : (⟨2, ![a, b]⟩ : Shape).Idx) (q : (DotDims.transposedRhs a n b).contr.Idx) :
    ((DotDims.transposedRhs a n b).rhsIdx i q 0).val = (i 1).val := rfl

/-- … and the contraction coordinate as its column. -/
theorem rhs_col (i : (⟨2, ![a, b]⟩ : Shape).Idx) (q : (DotDims.transposedRhs a n b).contr.Idx) :
    ((DotDims.transposedRhs a n b).rhsIdx i q 1).val
      = (q (⟨0, Nat.one_pos⟩ : Fin (DotDims.transposedRhs a n b).contr.rank)).val :=
  (DotDims.transposedRhs a n b).rhsIdx_val_of_single rfl i q

/-- A product with the transposed right operand into the zero accumulator, at entry `(r, j)`, is
    `Σₖ A (r, k) · B (j, k)`. -/
theorem matmul_zero_apply {φ₁ φ₂ : FTy} (prec : Option ContractPrecision) (A : FVec Ideal ⟨2, ![a, n]⟩ φ₁)
    (B : FVec Ideal ⟨2, ![b, n]⟩ φ₂) (r : Fin a) (j : Fin b) :
    FloatOps.matmul (DotDims.transposedRhs a n b) prec A B (constant ⟨2, ![a, b]⟩ .f32 0x00000000#32) (ix2 r j)
      = ∑ k : Fin n, A (ix2 r k) * B (ix2 j k) := by
  rw [Ideal.matmul_constant_zero_apply, ← Equiv.sum_comp (contrEquiv1 (DotDims.transposedRhs a n b) n rfl rfl).symm]
  refine Finset.sum_congr rfl fun k _ => ?_
  have hk := contrEquiv1_symm_val (DotDims.transposedRhs a n b) n rfl rfl k
  have el : (DotDims.transposedRhs a n b).lhsIdx (ix2 r j) ((contrEquiv1 (DotDims.transposedRhs a n b) n rfl rfl).symm k)
      = ix2 r k :=
    funext fun c => Fin.ext (by
      match c with
      | ⟨0, _⟩ => exact lhs_row _ _
      | ⟨1, _⟩ => exact (lhs_col _ _).trans hk)
  have er : (DotDims.transposedRhs a n b).rhsIdx (ix2 r j) ((contrEquiv1 (DotDims.transposedRhs a n b) n rfl rfl).symm k)
      = ix2 j k :=
    funext fun c => Fin.ext (by
      match c with
      | ⟨0, _⟩ => exact rhs_row _ _
      | ⟨1, _⟩ => exact (rhs_col _ _).trans hk)
  rw [el, er]

end Cert.LibTransposedMatmul

end
-- ==== Proof.Tile.lean ====
/-
  The body's three stored values read at an entry, on the extended reals.

  From a support block `sb` (one batch: 1024 rows of 2048 entries) the body keeps the block itself and the row norms
  ‖sb(s,·)‖. From a query block `xb` (256 rows) and those two it computes, at (r, s),

      (Σ_k xb(r,k) · sb(s,k)) / max (‖xb(r,·)‖ · ‖sb(s,·)‖, ε).

  A change of float format is the identity on the extended reals, a lane sum is the sum of the row's entries, and the
  matrix product into the zero accumulator is the sum of products over the shared axis.
-/
import proofs.«131012_j9371618640063_1_alg».proof.Proof.Gen.KernelIdeal.Skeleton
import proofs.«131012_j9371618640063_1_alg».proof.Proof.Spec
import proofs.«131012_j9371618640063_1_alg».proof.Proof.LibKeepdims
import proofs.«131012_j9371618640063_1_alg».proof.Proof.LibBlockLayout
import proofs.«131012_j9371618640063_1_alg».proof.Proof.LibTransposedMatmul
import Idealize.ShloMosaic.Lib.ValueLayout

noncomputable section

open scoped BigOperators

namespace Cert.KernelIdeal.Tile

open Cert.KernelIdeal Cert.KernelIdeal.Gen Idealize.ShloMosaic Idealize.ShloMosaic.ValueIdx

/-- The kept copy of the support block, at row `s`, entry `d`: the block's entry. -/
theorem kept_block_at (sb : Vec Ideal S1x1024x2048 .f32) (s : Fin 1024) (d : Fin 2048) :
    k0_pay3 (F := Ideal) sb (ix2 s d) = sb (ix3 (0 : Fin 1) s d) := by
  unfold k0_pay3 k0_pay1
  dsimp only
  rw [shapeCast_self]
  exact Cert.LibBlockLayout.dropUnit_at sb _ s d

/-- The kept norms, at support row `s`: the square root of the sum of that row's squares. -/
theorem kept_norm_at (sb : Vec Ideal S1x1024x2048 .f32) (s : Fin 1024) :
    k0_pay2 (F := Ideal) sb (ix2 (0 : Fin 1) s)
      = Ideal.sqrt (∑ d : Fin 2048, sb (ix3 (0 : Fin 1) s d) * sb (ix3 (0 : Fin 1) s d)) := by
  unfold k0_pay2 k0_pay1
  dsimp only
  rw [shapeCast_self]
  refine (shapeCast_a_1a_apply _ _ (0 : Fin 1) s).trans ?_
  refine congrArg Ideal.sqrt ?_
  refine (Cert.LibKeepdims.multiReduction_add_rows _ _ _ _ _ s).trans ?_
  refine Finset.sum_congr rfl fun d _ => ?_
  have e := Cert.LibBlockLayout.dropUnit_at sb shapeCasts_S1x1024x2048_S1024x2048 s d
  exact congrArg₂ (· * ·) e e

/-- The output tile at query row `r`, support row `s`, from a query block `xb`, a kept block `kb` and kept norms `kn`. -/
theorem tile_at (xb : Vec Ideal S1x256x2048 .f32) (kb : Vec Ideal S1024x2048 .bf16) (kn : Vec Ideal S1x1024 .f32)
    (r : Fin 256) (s : Fin 1024) :
    k0_pay4 (F := Ideal) xb kb kn (ix3 (0 : Fin 1) r s)
      = Ideal.div (∑ k : Fin 2048, xb (ix3 (0 : Fin 1) r k) * kb (ix2 s k))
          (max (Ideal.sqrt (∑ d : Fin 2048, xb (ix3 (0 : Fin 1) r d) * xb (ix3 (0 : Fin 1) r d)) * kn (ix2 (0 : Fin 1) s))
            (Ideal.ofBits .f32 0x2EDBE6FF#32)) := by
  unfold k0_pay4
  dsimp only
  refine (Cert.LibBlockLayout.addUnit_at _ _ r s).trans ?_
  refine congrArg₂ Ideal.div ?_ (congrArg₂ max (congrArg₂ (· * ·) ?_ ?_) rfl)
  · refine (Cert.LibTransposedMatmul.matmul_zero_apply (a := 256) (n := 2048) (b := 1024) (φ₁ := .bf16) (φ₂ := .bf16) none _ kb r s).trans ?_
    refine Finset.sum_congr rfl fun k _ => ?_
    exact congrArg (· * kb (ix2 s k)) (Cert.LibBlockLayout.dropUnit_at xb _ r k)
  · refine (Cert.LibKeepdims.broadcastTo_a1_ab_apply _ _ r s).trans ?_
    refine congrArg Ideal.sqrt ?_
    refine (Cert.LibKeepdims.shapeCast_a_a1_apply _ _ r (0 : Fin 1)).trans ?_
    refine (Cert.LibKeepdims.multiReduction_add_rows _ _ _ _ _ r).trans ?_
    refine Finset.sum_congr rfl fun d _ => ?_
    have e := Cert.LibBlockLayout.dropUnit_at xb shapeCasts_S1x256x2048_S256x2048 r d
    exact congrArg₂ (· * ·) e e
  · exact Cert.LibBlockLayout.rowBroadcast_at kn _ r s

/-- When the query block holds rows `256·q … 256·q + 255` of batch `b` of `X` and the support block holds batch `b` of
    `S`, the output tile computed from the support block's kept copy and kept norms is the similarity, entry by entry. -/
theorem tile_sim (S X : Cert.CosSim.Rows.Idx → EReal) (b : Fin 8) (q : Fin 4)
    (xb : Vec Ideal S1x256x2048 .f32) (sb : Vec Ideal S1x1024x2048 .f32)
    (hx : ∀ (r : Fin 256) (d : Fin 2048), xb (ix3 (0 : Fin 1) r d) = X (ix3 b (Cert.CosSim.row q r) d))
    (hs : ∀ (s : Fin 1024) (d : Fin 2048), sb (ix3 (0 : Fin 1) s d) = S (ix3 b s d))
    (r : Fin 256) (s : Fin 1024) :
    k0_pay4 (F := Ideal) xb (k0_pay3 sb) (k0_pay2 sb) (ix3 (0 : Fin 1) r s)
      = Cert.CosSim.simAt S X b (Cert.CosSim.row q r) s := by
  refine (tile_at xb _ _ r s).trans ?_
  simp only [kept_block_at, kept_norm_at, hx, hs]
  rfl

end Cert.KernelIdeal.Tile

end
-- ==== Proof.Whole.lean ====
/-
  The kernel's result array is the similarity of its two argument arrays.

  What point t writes back is the output tile the body computed from the point's own query block and support block
  (the scratch buffers hold that block's kept copy and norms), and those blocks are rows 256·(t mod 4) … of batch t / 4
  of X and the whole batch t / 4 of S: so the tile is the block of the similarity array that the output window names
  at t. The 32 output blocks tile the array (entry (b, r, s) lies in the block of point 4·b + r / 256), so the array
  after the run is the similarity array.
-/
import proofs.«131012_j9371618640063_1_alg».proof.Proof.Gen.KernelIdeal.Value
import proofs.«131012_j9371618640063_1_alg».proof.Proof.Carried
import proofs.«131012_j9371618640063_1_alg».proof.Proof.Tile

noncomputable section

namespace Cert.KernelIdeal.Whole

open Cert.KernelIdeal Cert.KernelIdeal.Gen Idealize.ShloMosaic Idealize.ShloMosaic.TcCoe Idealize.SL.Sem
open Idealize.ShloMosaic.ValueIdx Cert.KernelIdeal.Carried
open Idealize.ShloMosaic.Pipeline (Dat)

variable (m : (ℓ : Loc nD τ sig) → Buf (Elt Ideal) ℓ) (ρ : Dev nD → PrngReg)

/-- The similarity of the argument arrays as launched, as contents of the result array. -/
abbrev result (c : Dev nD) : Buf (Elt Ideal) ((c : Thread nD τ).loc main_v0) :=
  Cert.CosSim.sim (m ((c : Thread nD τ).loc main_arg0)) (m ((c : Thread nD τ).loc main_arg1))

/-- The output tile after point t, entry by entry, is the similarity at batch t / 4, query row 256·(t mod 4) + r. -/
theorem tile_value (c : Dev nD) (t : Fin cfg0.N) (r : Fin 256) (s : Fin 1024) :
    (outsAt0 m c t.val t.isLt).1 (ix3 (0 : Fin 1) r s)
      = Cert.CosSim.simAt (m ((c : Thread nD τ).loc main_arg0)) (m ((c : Thread nD τ).loc main_arg1))
          (batchOf t) (Cert.CosSim.row (tileOf t) r) s := by
  rw [tile_after m c t]
  exact Tile.tile_sim (m ((c : Thread nD τ).loc main_arg0)) (m ((c : Thread nD τ).loc main_arg1)) (batchOf t) (tileOf t)
    (iblk m c 0 t) (iblk m c 1 t) (fun r d => query_block_at m c t r d) (fun s d => support_block_at m c t s d) r s

/-- What point t writes back is block t of the similarity array. -/
theorem flushed_sim (c : Dev nD) (t : Fin cfg0.N) :
    (dats m 0 c).flushed 2 t = ((cfg0.win 2).blk t).view.read (Elt Ideal) (result m c) := by
  rw [Value.flushed2]
  obtain ⟨-, -, -, -, -, -, e0, e1, e2⟩ := index_facts t
  funext y
  obtain ⟨u, r, s, rfl⟩ : ∃ (u : Fin 1) (r : Fin 256) (s : Fin 1024), y = ix3 u r s := ⟨y 0, y 1, y 2, eq_ix3 y⟩
  obtain rfl : u = 0 := Subsingleton.elim _ _
  rw [View.read_apply]
  refine (tile_value m c t r s).trans ?_
  show _ = Cert.CosSim.simAt _ _ _ _ _
  have hN := lt_of_lt_of_eq t.isLt points
  refine congr (congr (congrArg (Cert.CosSim.simAt _ _) (Fin.ext ?_)) (Fin.ext ?_)) (Fin.ext ?_)
  · show t.val / 4 = win0_2.index t (0 : Fin 3) * 1 + 1 * 0; omega
  · show 256 * (t.val % 4) + r.val = win0_2.index t (1 : Fin 3) * 256 + 1 * r.val; omega
  · show s.val = win0_2.index t (2 : Fin 3) * 1024 + 1 * s.val; omega

/-- An entry of the array is in point t's block iff each coordinate is in the block's range on its axis. -/
theorem mem_block (t : Fin cfg0.N) (i : S8x1024x1024.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v0).slice (win0_2.rect t)).set ↔ _
  rw [View.set_slice_whole, Rect.mem_set_unit]
  exact Iff.rfl

/-- Every entry (b, r, s) is in the block of point 4·b + r / 256. -/
theorem covered (i : S8x1024x1024.Idx) :
    ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 1024 := (i 2).isLt
  let t : Fin cfg0.N := ⟨4 * (i 0).val + (i 1).val / 256, by rw [points]; omega⟩
  have ht : t.val = 4 * (i 0).val + (i 1).val / 256 := rfl
  obtain ⟨-, -, -, -, -, -, e0, e1, e2⟩ := index_facts t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- The result array after the run is the similarity array. -/
theorem final (c : Dev nD) : (dats m 0 c).arrAt 2 cfg0.N = result m c :=
  (dats m 0 c).arrAt_eq_of_cover 2 (result m c) (fun t _ => flushed_sim m c t) covered

/-- The kernel's run: the result array at the similarity of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefSim.lean ====
/-
  The reference program computes the similarity.

  Read one operation at a time, the reference's result at (b, t, s) is the quotient of the batched inner product
  Σ_d X(b,t,d) · S(b,s,d) by the larger of ε and the product of the two row norms, each norm the square root of
  0 + Σ_d (·)² along the last axis; the two broadcasts only repeat a norm along the other row index. The zero the
  sums start from is the extended real 0.
-/
import proofs.«131012_j9371618640063_1_alg».proof.Proof.Gen.ReferenceIdeal.Read
import proofs.«131012_j9371618640063_1_alg».proof.Proof.Spec

noncomputable section

open scoped BigOperators

namespace Cert.ReferenceIdeal.RefSim

open Cert.ReferenceIdeal Cert.ReferenceIdeal.Gen Cert.ReferenceIdeal.Read Idealize.ShloMosaic Idealize.ShloMosaic.ValueIdx

/-- The inner product's left index at (b, t, s), k is (b, t, k); -/
theorem left_index (b : Fin 8) (t s : Fin 1024) (k : Fin 2048) : lidx_main_v2 (ix3 b t s) k = ix3 b t k :=
  funext fun a => by match a with | ⟨0, _⟩ => rfl | ⟨1, _⟩ => rfl | ⟨2, _⟩ => rfl

/-- its right index is (b, s, k). -/
theorem right_index (b : Fin 8) (t s : Fin 1024) (k : Fin 2048) : ridx_main_v2 (ix3 b t s) k = ix3 b s k :=
  funext fun a => by match a with | ⟨0, _⟩ => rfl | ⟨1, _⟩ => rfl | ⟨2, _⟩ => rfl

/-- The query norm repeated along s is read at (b, t), summed over (b, t, k); -/
theorem query_norm_index (b : Fin 8) (t s : Fin 1024) (k : Fin 2048) :
    idx_main_call0_v1 (idx_main_v3 (idx_main_v5 (ix3 b t s))) k = ix3 b t k :=
  funext fun a => by match a with | ⟨0, _⟩ => rfl | ⟨1, _⟩ => rfl | ⟨2, _⟩ => rfl

/-- the support norm repeated along t is read at (b, s), summed over (b, s, k). -/
theorem support_norm_index (b : Fin 8) (t s : Fin 1024) (k : Fin 2048) :
    idx_main_call1_v1 (idx_main_v4 (idx_main_v6 (ix3 b t s))) k = ix3 b s k :=
  funext fun a => by match a with | ⟨0, _⟩ => rfl | ⟨1, _⟩ => rfl | ⟨2, _⟩ => rfl

/-- The reference's last stage is the similarity of its two arguments (the support array first, the query array second). -/
theorem reference_is_sim (x0 x1 : (⟨S8x1024x2048, .f32⟩ : BufTy).Contents (Elt Ideal)) :
    val_main_v10 (F := Ideal) x0 x1 = Cert.CosSim.sim x0 x1 := by
  funext i
  obtain ⟨b, t, s, rfl⟩ : ∃ (b : Fin 8) (t : Fin 1024) (s : Fin 1024), i = ix3 b t s := ⟨i 0, i 1, i 2, eq_ix3 i⟩
  rw [val_main_v10_apply, val_main_v2_apply, val_main_v9_apply, val_main_v7_apply, val_main_v8_apply,
    val_main_cst_apply, val_main_v5_apply, val_main_v3_apply, val_main_v0_apply, val_main_call0_v1_apply,
    val_main_v6_apply, val_main_v4_apply, val_main_v1_apply, val_main_call1_v1_apply]
  simp only [val_main_call0_v0_apply, val_main_call1_v0_apply, val_main_call0_cst_apply, val_main_call1_cst_apply,
    left_index, right_index, query_norm_index, support_norm_index,
    Ideal.hostDivf_def, Ideal.maximumf_def, Ideal.mulf_def, Ideal.hostUnary_sqrt_def, Ideal.ofBits_def,
    Ideal.ofBits_zero_f32, zero_add]
  rfl

end Cert.ReferenceIdeal.RefSim

end
-- ==== Proof.lean ====
/-
  Pairwise cosine similarity: a tiled kernel against its plain reference, on the extended reals.

  Both programs compute, for every batch b, query row t of X and support row s of S,

      (Σ_d X(b,t,d) · S(b,s,d)) / max (‖X(b,t,·)‖ · ‖S(b,s,·)‖, ε)

  with the same operations in the same order, so no law beyond re-indexing a finite sum joins them and the finiteness
  of the inputs is never used. The kernel differs in arrangement only: it walks a grid of 8 batches by 4 tiles of 256
  query rows, and at the first tile of a batch it keeps the batch's support block and its row norms in two scratch
  buffers that the other three tiles read. The mathematics is in the modules this one imports:

    Spec     the similarity as one function of the two arrays;
    Pieces   what one run of the body leaves in the scratch buffers and the output tile, in each of its two cases;
    Tile     those values read at an entry: a lane sum is the sum of a row, the matrix product the sum of products,
             a change of float format the identity;
    Carried  by induction on the grid point, the scratch buffers always hold the kept copy and norms of the
             point's own support block, so every output tile is computed from the point's own two blocks;
    Whole    each tile is the block of the similarity array its window names, the 32 blocks tile the array, hence
             the kernel's result array is the similarity array;
    RefSim   the reference's last operation, read one operation at a time, is the similarity array too.

  The idealization rewrote nothing, so that conjunct is trivial; the reference's frame is its run with the result
  dropped.
-/
import proofs.«131012_j9371618640063_1_alg».proof.Defs
import proofs.«131012_j9371618640063_1_alg».proof.Proof.Gen.Kernel
import proofs.«131012_j9371618640063_1_alg».proof.Proof.Gen.Kernel.Frame
import proofs.«131012_j9371618640063_1_alg».proof.Proof.Gen.KernelIdeal
import proofs.«131012_j9371618640063_1_alg».proof.Proof.Gen.KernelIdeal.Frame
import proofs.«131012_j9371618640063_1_alg».proof.Proof.Gen.ReferenceIdeal
import proofs.«131012_j9371618640063_1_alg».proof.Proof.Gen.Pre_finite_inputs
import proofs.«131012_j9371618640063_1_alg».proof.Proof.Gen.KernelIdeal.Value
import proofs.«131012_j9371618640063_1_alg».proof.Proof.Gen.ReferenceIdeal.Run
import proofs.«131012_j9371618640063_1_alg».proof.Proof.Gen.ReferenceIdeal.Read
import proofs.«131012_j9371618640063_1_alg».proof.Proof.Whole
import proofs.«131012_j9371618640063_1_alg».proof.Proof.RefSim
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: it runs, and none of them writes an argument. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, the kernel's result array and the reference's both end at the
    similarity of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefSim.reference_is_sim, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
